-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S8x19x128x128 : Shape := ⟨4, ![8, 19, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S8x19x128x128 : S_.BroadcastsInDim S8x19x128x128 (![] : Fin 0 → Fin S8x19x128x128.rank)
  reducesTo_S8x19x128x128_S_d0_1_2_3 : S8x19x128x128.ReducesTo [0, 1, 2, 3] S_

variable [Facts]

def fn {F : FTy → Type} [FloatOps F] (main_arg0 : FVec F S8x512x128x128 .f32) (main_arg1 : FVec F S8x19x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x19x128x128 .f32 := Host.absf main_arg1
  let main_cst_0 : FVec F S_ .f32 := constant S_ .f32 0x7F800000#32
  let main_v5 : FVec F S8x19x128x128 .f32 := broadcastInDim S8x19x128x128 ![] bcast_S_S8x19x128x128 main_cst_0
  let main_v6 : IVec S8x19x128x128 1 := cmpf .olt main_v4 main_v5
  let main_c_1 : IVec S_ 1 := constantI S_ 1 1#1
  let main_v7 : IVec S_ 1 := (fun x v => Host.reduce IntOp.andi x v reducesTo_S8x19x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x19x128x128 : Shape := ⟨4, ![8, 19, 128, 128]⟩
abbrev S8x512x16384 : Shape := ⟨3, ![8, 512, 16384]⟩
abbrev S8x19x16384 : Shape := ⟨3, ![8, 19, 16384]⟩
abbrev S8x19x512 : Shape := ⟨3, ![8, 19, 512]⟩
abbrev S1x19x16384 : Shape := ⟨3, ![1, 19, 16384]⟩
abbrev S1x512x4096 : Shape := ⟨3, ![1, 512, 4096]⟩
abbrev S1x19x512 : Shape := ⟨3, ![1, 19, 512]⟩
abbrev S19x1 : Shape := ⟨2, ![19, 1]⟩
abbrev S19x512 : Shape := ⟨2, ![19, 512]⟩
abbrev S19x16384 : Shape := ⟨2, ![19, 16384]⟩
abbrev S19 : Shape := ⟨1, ![19]⟩
abbrev S19x4096 : Shape := ⟨2, ![19, 4096]⟩
abbrev S512x4096 : Shape := ⟨2, ![512, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x512x16384, .f32⟩
  | .hbm, ⟨3, _⟩ => ⟨S8x19x16384, .f32⟩
  | .hbm, ⟨4, _⟩ => ⟨S8x19x512, .f32⟩
  | .local _ .vmem, ⟨0, _⟩ => ⟨S1x19x16384, .f32⟩
  | .local _ .vmem, ⟨1, _⟩ => ⟨S1x19x16384, .f32⟩
  | .local _ .vmem, ⟨2, _⟩ => ⟨S1x512x4096, .f32⟩
  | .local _ .vmem, ⟨3, _⟩ => ⟨S1x512x4096, .f32⟩
  | .local _ .vmem, ⟨4, _⟩ => ⟨S1x19x512, .f32⟩
  | .local _ .vmem, ⟨5, _⟩ => ⟨S1x19x512, .f32⟩
  | .local _ .vmem, ⟨6, _⟩ => ⟨S19x1, .f32⟩
  | .local _ .vmem, ⟨7, _⟩ => ⟨S19x1, .f32⟩
  | .local _ .vmem, ⟨8, _⟩ => ⟨S19x512, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let c0 : Index := 0#32
  let arg1 : BitVec 32 := BitVec.ofNat 32 (i 1).val
  let c4096_i32 : BitVec 32 := 4096#32
  let v3 : BitVec 32 := Scalar.muli arg1 c4096_i32
  let v4 : BitVec 32 := v3
  let v7 : Index := Scalar.indexCast v4
  ![0, v7.toNat]
def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x512x128x128_S8x512x16384 : S8x512x128x128.ShapeCasts S8x512x16384
  shapeCasts_S8x19x128x128_S8x19x16384 : S8x19x128x128.ShapeCasts S8x19x16384
  inb_S1x19x16384_S1x19x16384_0_0_0 : ∀ a, (![0, 0, 0] : Fin 3 → Nat) a + S1x19x16384.size a ≤ S1x19x16384.size a
  h_S1x19x16384 : 0 < S1x19x16384.numel
  shapeCasts_S1x19x16384_S19x16384 : S1x19x16384.ShapeCasts S19x16384
  reduces_S19x16384_S19 : S19x16384.Reduces [1] S19
  shapeCasts_S19_S19x1 : S19.ShapeCasts S19x1
  broadcasts_S19x1_S19x16384 : S19x1.Broadcasts S19x16384
  inb_S19x1_S19x1_0_0 : ∀ a, (![0, 0] : Fin 2 → Nat) a + S19x1.size a ≤ S19x1.size a
  h_S19x1 : 0 < S19x1.numel
  shapeCasts_S19x1_S19x1 : S19x1.ShapeCasts S19x1
  inb_S19x512_S19x512_0_0 : ∀ a, (![0, 0] : Fin 2 → Nat) a + S19x512.size a ≤ S19x512.size a
  h_S19x512 : 0 < S19x512.numel
  shapeCasts_S19x512_S19x512 : S19x512.ShapeCasts S19x512
  squeezes_S1x19x16384_S19x16384 : S1x19x16384.Squeezes S19x16384
  h_S19x4096 : 0 < S19x4096.numel
  shapeCasts_S19x4096_S19x4096 : S19x4096.ShapeCasts S19x4096
  broadcasts_S19x1_S19x4096 : S19x1.Broadcasts S19x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  broadcasts_S19x1_S19x512 : S19x1.Broadcasts S19x512
  inb_S1x19x512_S1x19x512_0_0_0 : ∀ a, (![0, 0, 0] : Fin 3 → Nat) a + S1x19x512.size a ≤ S1x19x512.size a
  h_S1x19x512 : 0 < S1x19x512.numel
  shapeCasts_S1x19x512_S19x512 : S1x19x512.ShapeCasts S19x512
  shapeCasts_S19x512_S1x19x512 : S19x512.ShapeCasts S1x19x512
  dot_S19x4096_S512x4096_S19x512_1_1_0_0_n_n_wf : DotDims.WF S19x4096 S512x4096 S19x512 [1] [1] [0] [0] [] []
  hrank0 : 0 < grid0.rank
  k0_mult1_dvd : ∀ i : grid0.Coords, 4096 ∣ (k0_mult1 i).toNat
  k0_off1_inb : ∀ i : grid0.Coords, ∀ a, (k0_off1 i) a + S19x4096.size a ≤ S19x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x16384.size a ≤ S8x19x16384.size a
  hwx0_0 : ∀ i : grid0.Coords, EltTy.bits .f32 = 32 ∨ (Rect.block (s := S8x19x16384) S1x19x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x16384.size a
  hwx0_1 : ∀ i : grid0.Coords, EltTy.bits .f32 = 32 ∨ (Rect.block (s := S8x512x16384) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x512.size a ≤ S8x19x512.size a
  hwx0_2 : ∀ i : grid0.Coords, EltTy.bits .f32 = 32 ∨ (Rect.block (s := S8x19x512) S1x19x512.size (cc0_transform_2 i) (hinb0_2 i)).WholeWords (EltTy.packing .f32)

variable [Facts₀]

def dot_S19x4096_S512x4096_S19x512_1_1_0_0_n_n : DotDims S19x4096 S512x4096 S19x512 where
  lhsContracting := [1]
  rhsContracting := [1]
  lhsNonContracting := [0]
  rhsNonContracting := [0]
  lhsBatch := []
  rhsBatch := []
  wf := dot_S19x4096_S512x4096_S19x512_1_1_0_0_n_n_wf

abbrev win0_0 : Pipeline.Window sig grid0 :=
  Pipeline.Window.ofSpec (Memref.whole main_v1) S1x19x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x19x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S8x19x128x128 : Shape := ⟨4, ![8, 19, 128, 128]⟩
abbrev S8x19x16384 : Shape := ⟨3, ![8, 19, 16384]⟩
abbrev S_ : Shape := ⟨0, ![]⟩
abbrev S8x19 : Shape := ⟨2, ![8, 19]⟩
abbrev S8x19x1 : Shape := ⟨3, ![8, 19, 1]⟩
abbrev S8x512x16384 : Shape := ⟨3, ![8, 512, 16384]⟩
abbrev S8x19x512 : Shape := ⟨3, ![8, 19, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x19x16384, .f32⟩
  | .hbm, ⟨3, _⟩ => ⟨S_, .f32⟩
  | .hbm, ⟨4, _⟩ => ⟨S8x19x16384, .f32⟩
  | .hbm, ⟨5, _⟩ => ⟨S8x19x16384, .f32⟩
  | .hbm, ⟨6, _⟩ => ⟨S_, .f32⟩
  | .hbm, ⟨7, _⟩ => ⟨S8x19, .f32⟩
  | .hbm, ⟨8, _⟩ => ⟨S_, .f32⟩
  | .hbm, ⟨9, _⟩ => ⟨S8x19, .f32⟩
  | .hbm, ⟨10, _⟩ => ⟨S8x19, .f32⟩
  | .hbm, ⟨11, _⟩ => ⟨S8x19x1, .f32⟩
  | .hbm, ⟨12, _⟩ => ⟨S8x19x16384, .f32⟩
  | .hbm, ⟨13, _⟩ => ⟨S8x19x16384, .f32⟩
  | .hbm, ⟨14, _⟩ => ⟨S8x19x16384, .f32⟩
  | .hbm, ⟨15, _⟩ => ⟨S_, .f32⟩
  | .hbm, ⟨16, _⟩ => ⟨S8x19, .f32⟩
  | .hbm, ⟨17, _⟩ => ⟨S8x19x1, .f32⟩
  | .hbm, ⟨18, _⟩ => ⟨S8x19x16384, .f32⟩
  | .hbm, ⟨19, _⟩ => ⟨S8x19x16384, .f32⟩
  | .hbm, ⟨20, _⟩ => ⟨S8x512x16384, .f32⟩
  | .hbm, ⟨21, _⟩ => ⟨S8x19x512, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S8x19x128x128_S8x19x16384 : S8x19x128x128.ShapeCasts S8x19x16384
  bcast_S_S8x19x16384 : S_.BroadcastsInDim S8x19x16384 (![] : Fin 0 → Fin S8x19x16384.rank)
  reducesTo_S8x19x16384_S8x19_d2 : S8x19x16384.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x16384_0_1_2 : S8x19x1.BroadcastsInDim S8x19x16384 (![0, 1, 2] : Fin 3 → Fin S8x19x16384.rank)
  shapeCasts_S8x512x128x128_S8x512x16384 : S8x512x128x128.ShapeCasts S8x512x16384
  dot_S8x19x16384_S8x512x16384_S8x19x512_2_2_1_1_0_0_wf : DotDims.WF S8x19x16384 S8x512x16384 S8x19x512 [2] [2] [1] [1] [0] [0]

variable [Facts₀]

def dot_S8x19x16384_S8x512x16384_S8x19x512_2_2_1_1_0_0 : DotDims S8x19x16384 S8x512x16384 S8x19x512 where
  lhsContracting := [2]
  rhsContracting := [2]
  lhsNonContracting := [1]
  rhsNonContracting := [1]
  lhsBatch := [0]
  rhsBatch := [0]
  wf := dot_S8x19x16384_S8x512x16384_S8x19x512_2_2_1_1_0_0_wf

class Facts : Prop extends Facts₀ where

variable [Facts]
-- ==== Proof.BCases.lean ====
/-
  The pooling kernel's grid is 8 batches by 4 spatial tiles, walked batch-major: point t is batch t / 4, tile t % 4.
  The body has two conditionals on the tile number: at tile 0 it computes the row maxima and the row sums of
  exponentials of the whole resident slab and clears the accumulator; at tile 3 it divides the accumulator by the
  row sums and stores the result.  So every point is in one of three cases: tile 0 (first conditional taken),
  tiles 1 and 2 (neither), tile 3 (second taken).  This module decides those conditions over the grid, says where
  the output window is idle, names the memrefs the body is called with, and spells the region invariant with the
  three scratch buffers (row maxima, row sums, accumulator) listed one by one.
-/
import proofs.«137643_j61340722922142_2_alg».proof.Proof.Gen.Kernel.Frame
import proofs.«137643_j61340722922142_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, decided over the grid -/

/-- The first conditional's condition: the tile number is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the tile number is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from tile 3 the body stores nothing into the output window, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x19x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x19x512 .f32 := win0_2.stage (cfg0.slots t 2)
abbrev hs0_2 (t : Fin cfg0.N) : (ms0_2 t).IsWhole := hstage0_2 ((cfg0.slots t 2).cast nbuf0_2)
/-- The scratch operands: the row maxima, the row sums, the accumulator. -/
abbrev scM0_0 : Memref sig .tc .vmem S19x1 .f32 := Memref.whole cc0_scratch0
abbrev scM0_1 : Memref sig .tc .vmem S19x1 .f32 := Memref.whole cc0_scratch1
abbrev scM0_2 : Memref sig .tc .vmem S19x512 .f32 := Memref.whole cc0_scratch2
abbrev VS0_0 : View sig .tc .vmem S19x1 .f32 := scM0_0.view
abbrev VS0_1 : View sig .tc .vmem S19x1 .f32 := scM0_1.view
abbrev VS0_2 : View sig .tc .vmem S19x512 .f32 := scM0_2.view
/-- One staging buffer of the output window, through which its contents are stated. -/
abbrev VO0_2 : View sig .tc .vmem S1x19x512 .f32 := (Memref.whole cc0_stg2_0 : Memref sig .tc .vmem S1x19x512 .f32).view

/-- The launch's invariant with the three scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.BRunA.lean ====
/-
  The body at tile 0 (first conditional taken, second not): from the whole resident slab it computes the row maxima
  and the row sums of exponentials, stores them, clears the accumulator, and then does the common step — this
  tile's product added to the accumulator.  All three scratch buffers are found at anything and left with the pieces
  the run finds; the output buffer is handed back as it was.
-/
import proofs.«137643_j61340722922142_2_alg».proof.Proof.BCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at tile 0; the pieces the three scratch buffers end with are the witness the run finds. -/
noncomputable def kernelRun0_A (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x16384 .f32) (x1 : Vec F S1x512x4096 .f32) :
    Σ' (LS0 : List (View.Piece (Elt F) S19x1 .f32)) (LS1 : List (View.Piece (Elt F) S19x1 .f32)), { LS2 : List (View.Piece (Elt F) S19x512 .f32) //
      ∀ (xi2 : Vec F S1x19x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pooling_kernel i arg2 harg2 arg3 harg3 arg4 harg4 arg5 harg5 arg6 harg6 arg7 harg7) K } := by
  refine ⟨?_, ?_, ?_, fun xi2 E K => ?run⟩
  case run =>
    simp only [cc0__pooling_kernel_eq_skeleton]; unfold cc0__pooling_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.BRunB.lean ====
/-
  The body at tiles 1 and 2 (neither conditional taken): it reads this tile's 4096 columns of the resident slab
  through a squeezed view of the slab's buffer, the row maxima, the feature block and the accumulator, and stores
  the accumulator plus the tile's product back.  The row maxima, the row sums and the output buffer are handed
  back as they were found.
-/
import proofs.«137643_j61340722922142_2_alg».proof.Proof.BRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at tiles 1 and 2; the pieces the accumulator ends with are the witness the run finds. -/
noncomputable def kernelRun0_B (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x19x16384 .f32) (x1 : Vec F S1x512x4096 .f32) (xs0 : Vec F S19x1 .f32) (xs2 : Vec F S19x512 .f32) :
    { LS2 : List (View.Piece (Elt F) S19x512 .f32) //
      ∀ (xi2 : Vec F S1x19x512 .f32) (xs1 : Vec F S19x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ owns (c : Thread nD τ) arg5 fullShare xs0 ∗ owns (c : Thread nD τ) arg6 fullShare xs1 ∗ (∃ f, arg7.view.loc (c : Thread nD τ) ↦[arg7.view.set]{fullShare} arg7.view.writes (Elt F) f LS2)) -∗ K ⟨⟩))
          ⊢ wp frame (wpE (defs₀ (F := F)) Variants.none c none) E (cc0__pooling_kernel i arg2 harg2 arg3 harg3 arg4 harg4 arg5 harg5 arg6 harg6 arg7 harg7) K } := by
  refine ⟨?_, fun xi2 xs1 E K => ?run⟩
  case run =>
    simp only [cc0__pooling_kernel_eq_skeleton]; unfold cc0__pooling_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]
    · iexists _; isplitr; · ipureintro; exact harg6.read_unread _
      iexact HS1
    iexists _; iexact HS2

end Cert.Kernel.Hand

end
-- ==== Proof.BRunC.lean ====
/-
  The body at tile 3 (second conditional taken, first not): the common step, then the accumulator times the
  reciprocal of the row sums is stored into the output buffer.  The row maxima and the row sums are handed back as
  found; the accumulator and the output buffer end with the pieces the run finds.
-/
import proofs.«137643_j61340722922142_2_alg».proof.Proof.BRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at tile 3; the pieces the output buffer and the accumulator end with are the witness. -/
noncomputable def kernelRun0_C (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x16384 .f32) (x1 : Vec F S1x512x4096 .f32) (xs0 : Vec F S19x1 .f32) (xs1 : Vec F S19x1 .f32) (xs2 : Vec F S19x512 .f32) :
    Σ' (L2 : List (View.Piece (Elt F) S1x19x512 .f32)), { LS2 : List (View.Piece (Elt F) S19x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ owns (c : Thread nD τ) arg5 fullShare xs0 ∗ owns (c : Thread nD τ) arg6 fullShare xs1 ∗ (∃ f, arg7.view.loc (c : Thread nD τ) ↦[arg7.view.set]{fullShare} arg7.view.writes (Elt F) f LS2)) -∗ K ⟨⟩))
          ⊢ wp frame (wpE (defs₀ (F := F)) Variants.none c none) E (cc0__pooling_kernel i arg2 harg2 arg3 harg3 arg4 harg4 arg5 harg5 arg6 harg6 arg7 harg7) K } := by
  refine ⟨?_, ?_, fun E K => ?run⟩
  case run =>
    simp only [cc0__pooling_kernel_eq_skeleton]; unfold cc0__pooling_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]
    · iexists _; isplitr; · ipureintro; exact harg6.read_unread _
      iexact HS1
    iexists _; iexact HS2

end Cert.Kernel.Hand

end
-- ==== Proof.BFrame.lean ====
/-
  What the scratch buffers and the output buffer hold after each grid point, the region invariant that carries the
  scratch contents from one point to the next, the body obligation, and the run of the whole program.

  After point n the row maxima, the row sums and the accumulator hold: at a tile 0 what the first case's stores
  leave (computed from the batch's slab and the first feature block alone); at tiles 1, 2 the maxima and sums
  of the point before, and the accumulator the point before left plus this tile's product; at tile 3 likewise, with
  the output buffer at the accumulator divided by the row sums.  Elsewhere the output window is idle and its
  buffer's contents are never consulted.
-/
import proofs.«137643_j61340722922142_2_alg».proof.Proof.BRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A placeholder for the output buffer's contents at the points where the window is idle (never consulted). -/
def outIdle : Vec F S1x19x512 .f32 := VO0_2.read (Elt F) VO0_2.junk

theorem scover0_A_0 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) (y : S19x1.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S19x1.size (by sl_kernel_rfl) y
theorem scover0_A_1 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) (y : S19x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S19x1.size (by sl_kernel_rfl) y
theorem scover0_A_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) (y : S19x512.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S19x512.size (by sl_kernel_rfl) y

/-- What tile 0 leaves in the row maxima, the row sums and the accumulator: its pieces read back. -/
def sout0_A_0 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) : Vec F S19x1 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) : Vec F S19x1 .f32 :=
  VS0_1.read (Elt F) (VS0_1.writes (Elt F) VS0_1.junk (kernelRun0_A c i arg2 harg2 arg3 harg3 arg4 harg4 arg5 harg5 arg6 harg6 arg7 harg7 hc0 hc1 x0 x1).2.1)
def sout0_A_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) : Vec F S19x512 .f32 :=
  VS0_2.read (Elt F) (VS0_2.writes (Elt F) VS0_2.junk (kernelRun0_A c i arg2 harg2 arg3 harg3 arg4 harg4 arg5 harg5 arg6 harg6 arg7 harg7 hc0 hc1 x0 x1).2.2.1)

theorem scover0_B_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i) (x0 : Vec F S1x19x16384 .f32) (x1 : Vec F S1x512x4096 .f32) (xs0 : Vec F S19x1 .f32) (xs2 : Vec F S19x512 .f32) (y : S19x512.Idx) :
    ∃ pc ∈ (kernelRun0_B c i arg2 harg2 arg3 harg3 arg4 harg4 arg5 harg5 arg6 harg6 arg7 harg7 hc0 hc1 x0 x1 xs0 xs2).1, y ∈ pc.1.set :=
  View.cover_of_tiledL (kernelRun0_B c i arg2 harg2 arg3 harg3 arg4 harg4 arg5 harg5 arg6 harg6 arg7 harg7 hc0 hc1 x0 x1 xs0 xs2).1 S19x512.size (by sl_kernel_rfl) y
/-- What tiles 1 and 2 leave in the accumulator. -/
def sout0_B_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i) (x0 : Vec F S1x19x16384 .f32) (x1 : Vec F S1x512x4096 .f32) (xs0 : Vec F S19x1 .f32) (xs2 : Vec F S19x512 .f32) : Vec F S19x512 .f32 :=
  VS0_2.read (Elt F) (VS0_2.writes (Elt F) VS0_2.junk (kernelRun0_B c i arg2 harg2 arg3 harg3 arg4 harg4 arg5 harg5 arg6 harg6 arg7 harg7 hc0 hc1 x0 x1 xs0 xs2).1)

theorem cover0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) (y : S1x19x512.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S1x19x512.size (by sl_kernel_rfl) y
theorem scover0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) (y : S19x512.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S19x512.size (by sl_kernel_rfl) y
/-- What tile 3 leaves in the output buffer and in the accumulator. -/
def out0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) : Vec F S1x19x512 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)
def sout0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) : Vec F S19x512 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.1)

/-! ## Point by point -/

/-- The output buffer, the row maxima, the row sums and the accumulator after the body at position n. -/
def outsAt0 (c : Dev nD) : (n : ℕ) → n < cfg0.N → Vec F S1x19x512 .f32 × Vec F S19x1 .f32 × Vec F S19x1 .f32 × Vec F S19x512 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.1, (outsAt0 c n (Nat.lt_of_succ_lt hn)).2.2.1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle, (outsAt0 c n (Nat.lt_of_succ_lt hn)).2.1, (outsAt0 c n (Nat.lt_of_succ_lt hn)).2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (outIdle, sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, (outsAt0 m c (t.val - 1) (Nat.lt_of_le_of_lt (Nat.sub_le _ _) t.isLt)).2.1, (outsAt0 m c (t.val - 1) (Nat.lt_of_le_of_lt (Nat.sub_le _ _) t.isLt)).2.2.1, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the launch's (every scratch at anything);
    afterwards the three scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which case the point is in; the invariant hands the body the
    scratch buffers at what the point before left (at anything before the first point) and takes them back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk m c 0 t) (iblk m c 1 t) _ _ _).2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_C_2 c _ _ _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _).2 _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_B_2 c _ _ _ _ _ _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has every array of the pipeline
    at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.ICases.lean ====
/-
  The pooling kernel's grid is 8 batches by 4 spatial tiles, walked batch-major: point t is batch t / 4, tile t % 4.
  The body has two conditionals on the tile number: at tile 0 it computes the row maxima and the row sums of
  exponentials of the whole resident slab and clears the accumulator; at tile 3 it divides the accumulator by the
  row sums and stores the result.  So every point is in one of three cases: tile 0 (first conditional taken),
  tiles 1 and 2 (neither), tile 3 (second taken).  This module decides those conditions over the grid, says where
  the output window is idle, names the memrefs the body is called with, and spells the region invariant with the
  three scratch buffers (row maxima, row sums, accumulator) listed one by one.
-/
import proofs.«137643_j61340722922142_2_alg».proof.Proof.Gen.KernelIdeal.Frame
import proofs.«137643_j61340722922142_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, decided over the grid -/

/-- The first conditional's condition: the tile number is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the tile number is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from tile 3 the body stores nothing into the output window, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x19x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x19x512 .f32 := win0_2.stage (cfg0.slots t 2)
abbrev hs0_2 (t : Fin cfg0.N) : (ms0_2 t).IsWhole := hstage0_2 ((cfg0.slots t 2).cast nbuf0_2)
/-- The scratch operands: the row maxima, the row sums, the accumulator. -/
abbrev scM0_0 : Memref sig .tc .vmem S19x1 .f32 := Memref.whole cc0_scratch0
abbrev scM0_1 : Memref sig .tc .vmem S19x1 .f32 := Memref.whole cc0_scratch1
abbrev scM0_2 : Memref sig .tc .vmem S19x512 .f32 := Memref.whole cc0_scratch2
abbrev VS0_0 : View sig .tc .vmem S19x1 .f32 := scM0_0.view
abbrev VS0_1 : View sig .tc .vmem S19x1 .f32 := scM0_1.view
abbrev VS0_2 : View sig .tc .vmem S19x512 .f32 := scM0_2.view
/-- One staging buffer of the output window, through which its contents are stated. -/
abbrev VO0_2 : View sig .tc .vmem S1x19x512 .f32 := (Memref.whole cc0_stg2_0 : Memref sig .tc .vmem S1x19x512 .f32).view

/-- The launch's invariant with the three scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.IRunA.lean ====
/-
  The body at tile 0 (first conditional taken, second not): from the whole resident slab it computes the row maxima
  and the row sums of exponentials, stores them, clears the accumulator, and then does the common step — this
  tile's product added to the accumulator.  All three scratch buffers are found at anything and left with the pieces
  the run finds; the output buffer is handed back as it was.
-/
import proofs.«137643_j61340722922142_2_alg».proof.Proof.ICases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at tile 0; the pieces the three scratch buffers end with are the witness the run finds. -/
noncomputable def kernelRun0_A (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x16384 .f32) (x1 : Vec F S1x512x4096 .f32) :
    Σ' (LS0 : List (View.Piece (Elt F) S19x1 .f32)) (LS1 : List (View.Piece (Elt F) S19x1 .f32)), { LS2 : List (View.Piece (Elt F) S19x512 .f32) //
      ∀ (xi2 : Vec F S1x19x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__pooling_kernel i arg2 harg2 arg3 harg3 arg4 harg4 arg5 harg5 arg6 harg6 arg7 harg7) K } := by
  refine ⟨?_, ?_, ?_, fun xi2 E K => ?run⟩
  case run =>
    simp only [cc0__pooling_kernel_eq_skeleton]; unfold cc0__pooling_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.IRunB.lean ====
/-
  The body at tiles 1 and 2 (neither conditional taken): it reads this tile's 4096 columns of the resident slab
  through a squeezed view of the slab's buffer, the row maxima, the feature block and the accumulator, and stores
  the accumulator plus the tile's product back.  The row maxima, the row sums and the output buffer are handed
  back as they were found.
-/
import proofs.«137643_j61340722922142_2_alg».proof.Proof.IRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at tiles 1 and 2; the pieces the accumulator ends with are the witness the run finds. -/
noncomputable def kernelRun0_B (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x19x16384 .f32) (x1 : Vec F S1x512x4096 .f32) (xs0 : Vec F S19x1 .f32) (xs2 : Vec F S19x512 .f32) :
    { LS2 : List (View.Piece (Elt F) S19x512 .f32) //
      ∀ (xi2 : Vec F S1x19x512 .f32) (xs1 : Vec F S19x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ owns (c : Thread nD τ) arg5 fullShare xs0 ∗ owns (c : Thread nD τ) arg6 fullShare xs1 ∗ (∃ f, arg7.view.loc (c : Thread nD τ) ↦[arg7.view.set]{fullShare} arg7.view.writes (Elt F) f LS2)) -∗ K ⟨⟩))
          ⊢ wp frame (wpE (defs₀ (F := F)) Variants.none c none) E (cc0__pooling_kernel i arg2 harg2 arg3 harg3 arg4 harg4 arg5 harg5 arg6 harg6 arg7 harg7) K } := by
  refine ⟨?_, fun xi2 xs1 E K => ?run⟩
  case run =>
    simp only [cc0__pooling_kernel_eq_skeleton]; unfold cc0__pooling_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]
    · iexists _; isplitr; · ipureintro; exact harg6.read_unread _
      iexact HS1
    iexists _; iexact HS2

end Cert.KernelIdeal.Hand

end
-- ==== Proof.IRunC.lean ====
/-
  The body at tile 3 (second conditional taken, first not): the common step, then the accumulator times the
  reciprocal of the row sums is stored into the output buffer.  The row maxima and the row sums are handed back as
  found; the accumulator and the output buffer end with the pieces the run finds.
-/
import proofs.«137643_j61340722922142_2_alg».proof.Proof.IRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at tile 3; the pieces the output buffer and the accumulator end with are the witness. -/
noncomputable def kernelRun0_C (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x16384 .f32) (x1 : Vec F S1x512x4096 .f32) (xs0 : Vec F S19x1 .f32) (xs1 : Vec F S19x1 .f32) (xs2 : Vec F S19x512 .f32) :
    Σ' (L2 : List (View.Piece (Elt F) S1x19x512 .f32)), { LS2 : List (View.Piece (Elt F) S19x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ owns (c : Thread nD τ) arg5 fullShare xs0 ∗ owns (c : Thread nD τ) arg6 fullShare xs1 ∗ (∃ f, arg7.view.loc (c : Thread nD τ) ↦[arg7.view.set]{fullShare} arg7.view.writes (Elt F) f LS2)) -∗ K ⟨⟩))
          ⊢ wp frame (wpE (defs₀ (F := F)) Variants.none c none) E (cc0__pooling_kernel i arg2 harg2 arg3 harg3 arg4 harg4 arg5 harg5 arg6 harg6 arg7 harg7) K } := by
  refine ⟨?_, ?_, fun E K => ?run⟩
  case run =>
    simp only [cc0__pooling_kernel_eq_skeleton]; unfold cc0__pooling_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]
    · iexists _; isplitr; · ipureintro; exact harg6.read_unread _
      iexact HS1
    iexists _; iexact HS2

end Cert.KernelIdeal.Hand

end
-- ==== Proof.IFrame.lean ====
/-
  What the scratch buffers and the output buffer hold after each grid point, the region invariant that carries the
  scratch contents from one point to the next, the body obligation, and the run of the whole program.

  After point n the row maxima, the row sums and the accumulator hold: at a tile 0 what the first case's stores
  leave (computed from the batch's slab and the first feature block alone); at tiles 1, 2 the maxima and sums
  of the point before, and the accumulator the point before left plus this tile's product; at tile 3 likewise, with
  the output buffer at the accumulator divided by the row sums.  Elsewhere the output window is idle and its
  buffer's contents are never consulted.
-/
import proofs.«137643_j61340722922142_2_alg».proof.Proof.IRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A placeholder for the output buffer's contents at the points where the window is idle (never consulted). -/
def outIdle : Vec F S1x19x512 .f32 := VO0_2.read (Elt F) VO0_2.junk

theorem scover0_A_0 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) (y : S19x1.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S19x1.size (by sl_kernel_rfl) y
theorem scover0_A_1 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) (y : S19x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S19x1.size (by sl_kernel_rfl) y
theorem scover0_A_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) (y : S19x512.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S19x512.size (by sl_kernel_rfl) y

/-- What tile 0 leaves in the row maxima, the row sums and the accumulator: its pieces read back. -/
def sout0_A_0 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) : Vec F S19x1 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) : Vec F S19x1 .f32 :=
  VS0_1.read (Elt F) (VS0_1.writes (Elt F) VS0_1.junk (kernelRun0_A c i arg2 harg2 arg3 harg3 arg4 harg4 arg5 harg5 arg6 harg6 arg7 harg7 hc0 hc1 x0 x1).2.1)
def sout0_A_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i) (x0 : Vec F S1x19x16384 .f32) (x1 : Vec F S1x512x4096 .f32) : Vec F S19x512 .f32 :=
  VS0_2.read (Elt F) (VS0_2.writes (Elt F) VS0_2.junk (kernelRun0_A c i arg2 harg2 arg3 harg3 arg4 harg4 arg5 harg5 arg6 harg6 arg7 harg7 hc0 hc1 x0 x1).2.2.1)

theorem scover0_B_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i) (x0 : Vec F S1x19x16384 .f32) (x1 : Vec F S1x512x4096 .f32) (xs0 : Vec F S19x1 .f32) (xs2 : Vec F S19x512 .f32) (y : S19x512.Idx) :
    ∃ pc ∈ (kernelRun0_B c i arg2 harg2 arg3 harg3 arg4 harg4 arg5 harg5 arg6 harg6 arg7 harg7 hc0 hc1 x0 x1 xs0 xs2).1, y ∈ pc.1.set :=
  View.cover_of_tiledL (kernelRun0_B c i arg2 harg2 arg3 harg3 arg4 harg4 arg5 harg5 arg6 harg6 arg7 harg7 hc0 hc1 x0 x1 xs0 xs2).1 S19x512.size (by sl_kernel_rfl) y
/-- What tiles 1 and 2 leave in the accumulator. -/
def sout0_B_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i) (x0 : Vec F S1x19x16384 .f32) (x1 : Vec F S1x512x4096 .f32) (xs0 : Vec F S19x1 .f32) (xs2 : Vec F S19x512 .f32) : Vec F S19x512 .f32 :=
  VS0_2.read (Elt F) (VS0_2.writes (Elt F) VS0_2.junk (kernelRun0_B c i arg2 harg2 arg3 harg3 arg4 harg4 arg5 harg5 arg6 harg6 arg7 harg7 hc0 hc1 x0 x1 xs0 xs2).1)

theorem cover0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) (y : S1x19x512.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S1x19x512.size (by sl_kernel_rfl) y
theorem scover0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) (y : S19x512.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S19x512.size (by sl_kernel_rfl) y
/-- What tile 3 leaves in the output buffer and in the accumulator. -/
def out0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) : Vec F S1x19x512 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)
def sout0_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i) (x0 : Vec F S1x19x16384 .f32) (x1 : Vec F S1x512x4096 .f32) (xs0 : Vec F S19x1 .f32) (xs1 : Vec F S19x1 .f32) (xs2 : Vec F S19x512 .f32) : Vec F S19x512 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.1)

/-! ## Point by point -/

/-- The output buffer, the row maxima, the row sums and the accumulator after the body at position n. -/
def outsAt0 (c : Dev nD) : (n : ℕ) → n < cfg0.N → Vec F S1x19x512 .f32 × Vec F S19x1 .f32 × Vec F S19x1 .f32 × Vec F S19x512 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.1, (outsAt0 c n (Nat.lt_of_succ_lt hn)).2.2.1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle, (outsAt0 c n (Nat.lt_of_succ_lt hn)).2.1, (outsAt0 c n (Nat.lt_of_succ_lt hn)).2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (outIdle, sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, (outsAt0 m c (t.val - 1) (Nat.lt_of_le_of_lt (Nat.sub_le _ _) t.isLt)).2.1, (outsAt0 m c (t.val - 1) (Nat.lt_of_le_of_lt (Nat.sub_le _ _) t.isLt)).2.2.1, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the launch's (every scratch at anything);
    afterwards the three scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which case the point is in; the invariant hands the body the
    scratch buffers at what the point before left (at anything before the first point) and takes them back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk m c 0 t) (iblk m c 1 t) _ _ _).2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_C_2 c _ _ _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _).2 _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_B_2 c _ _ _ _ _ _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has every array of the pipeline
    at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.PoolPieces.lean ====
/-
  What each case's stores leave, as values: the pieces the runs found are whole-buffer stores, so a buffer read back
  after them is the last store's payload, and each payload's loads read the buffers the body was handed.

  The common step reads this tile's 4096 columns of the resident slab through a view that drops the slab's leading
  unit axis: the tile is the [19, 16384] reading of the slab, loaded at the tile's column offset.
-/
import proofs.«137643_j61340722922142_2_alg».proof.Proof.IFrame
import Idealize.ShloMosaic.Lib.Pipeline.Value
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- This tile's columns of the slab: the slab read as a [19, 16384] matrix, loaded at the tile's offset. -/
def tileOf (i : grid0.Coords) (x0 : Vec F S1x19x16384 .f32) : Vec F S19x4096 .f32 :=
  View.ld (shapeCast S19x16384 x0 shapeCasts_S1x19x16384_S19x16384) (Rect.unit (s := S19x16384) (k0_off1 i) S19x4096.size (k0_off1_inb i))

/-- The load through the squeezed view of the whole slab's buffer reads the tile. -/
theorem tile_read (i : grid0.Coords) (arg2 : Memref sig .tc .vmem S1x19x16384 .f32) (harg2 : arg2.IsWhole) (x0 : Vec F S1x19x16384 .f32)
    (hr : ∀ a, (Rect.unit (s := S1x19x16384) ![0, 0, 0] S1x19x16384.size inb_S1x19x16384_S1x19x16384_0_0_0).stride a = 1) :
    View.readAt (Elt F) ((arg2.slice (Rect.unit (s := S1x19x16384) ![0, 0, 0] S1x19x16384.size inb_S1x19x16384_S1x19x16384_0_0_0) hr).squeeze S19x16384 squeezes_S1x19x16384_S19x16384).view
        (Rect.unit (s := S19x16384) (k0_off1 i) S19x4096.size (k0_off1_inb i)).toLoadRect (harg2.unread x0)
      = tileOf i x0 := by
  unfold tileOf
  rw [View.readAt_eq_ld, Memref.read_squeeze_slice arg2 _ hr squeezes_S1x19x16384_S19x16384 shapeCasts_S1x19x16384_S19x16384,
    View.readAt_eq_ld, harg2.read_unread, View.ld_unit_zero (S := S1x19x16384) hz3]

/-- Tiles 1 and 2 leave in the accumulator what it held plus this tile's product. -/
theorem sout_B_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x19x16384 .f32) (x1 : Vec F S1x512x4096 .f32) (xs0 : Vec F S19x1 .f32) (xs2 : Vec F S19x512 .f32) :
    sout0_B_2 c i arg2 harg2 arg3 harg3 arg4 harg4 arg5 harg5 arg6 harg6 arg7 harg7 hc0 hc1 x0 x1 xs0 xs2 = k0_pay6 (tileOf i x0) xs0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs2)]
  unfold kernelRun0_B
  dsimp only
  sl_unfold_run_names
  rw [View.canon_unit_zero hz2, tile_read]
  simp only [View.readAt_eq_ld, harg2.read_unread, harg3.read_unread, harg5.read_unread, harg6.read_unread, harg7.read_unread,
    View.ld_unit_zero (S := S1x19x16384) hz3, View.ld_unit_zero (S := S1x512x4096) hz3, View.ld_unit_zero (S := S19x1) hz2, View.ld_unit_zero (S := S19x512) hz2]

/-- Tile 3 leaves the same in the accumulator, -/
theorem sout_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x16384 .f32) (x1 : Vec F S1x512x4096 .f32) (xs0 : Vec F S19x1 .f32) (xs1 : Vec F S19x1 .f32) (xs2 : Vec F S19x512 .f32) :
    sout0_C_2 c i arg2 harg2 arg3 harg3 arg4 harg4 arg5 harg5 arg6 harg6 arg7 harg7 hc0 hc1 x0 x1 xs0 xs1 xs2 = k0_pay6 (tileOf i x0) xs0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_run_names
  rw [View.canon_unit_zero hz2, tile_read]
  simp only [View.readAt_eq_ld, harg2.read_unread, harg3.read_unread, harg5.read_unread, harg6.read_unread, harg7.read_unread,
    View.ld_unit_zero (S := S1x19x16384) hz3, View.ld_unit_zero (S := S1x512x4096) hz3, View.ld_unit_zero (S := S19x1) hz2, View.ld_unit_zero (S := S19x512) hz2]

/-- and in the output buffer the new accumulator times the reciprocal of the row sums. -/
theorem out_C_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x16384 .f32) (x1 : Vec F S1x512x4096 .f32) (xs0 : Vec F S19x1 .f32) (xs1 : Vec F S19x1 .f32) (xs2 : Vec F S19x512 .f32) :
    out0_C_2 c i arg2 harg2 arg3 harg3 arg4 harg4 arg5 harg5 arg6 harg6 arg7 harg7 hc0 hc1 x0 x1 xs0 xs1 xs2 = k0_pay7 xs1 (k0_pay6 (tileOf i x0) xs0 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_run_names
  rw [View.canon_unit_zero hz3, View.readCov_unit_zero (S := S19x512) _ hz2, tile_read]
  simp only [View.readAt_eq_ld, harg2.read_unread, harg3.read_unread, harg5.read_unread, harg6.read_unread, harg7.read_unread,
    View.ld_unit_zero (S := S1x19x16384) hz3, View.ld_unit_zero (S := S1x512x4096) hz3, View.ld_unit_zero (S := S19x1) hz2, View.ld_unit_zero (S := S19x512) hz2]

/-- Tile 0 leaves the slab's row maxima, -/
theorem sout_A_0 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x16384 .f32) (x1 : Vec F S1x512x4096 .f32) :
    sout0_A_0 c i arg2 harg2 arg3 harg3 arg4 harg4 arg5 harg5 arg6 harg6 arg7 harg7 hc0 hc1 x0 x1 = k0_pay3 x0 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_run_names
  rw [View.canon_unit_zero hz2]
  simp only [View.readAt_eq_ld, harg2.read_unread, harg3.read_unread, harg5.read_unread, harg6.read_unread, harg7.read_unread,
    View.ld_unit_zero (S := S1x19x16384) hz3, View.ld_unit_zero (S := S1x512x4096) hz3, View.ld_unit_zero (S := S19x1) hz2, View.ld_unit_zero (S := S19x512) hz2]

/-- its row sums of shifted exponentials, -/
theorem sout_A_1 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x16384 .f32) (x1 : Vec F S1x512x4096 .f32) :
    sout0_A_1 c i arg2 harg2 arg3 harg3 arg4 harg4 arg5 harg5 arg6 harg6 arg7 harg7 hc0 hc1 x0 x1 = k0_pay4 x0 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_run_names
  rw [View.canon_unit_zero hz2]
  simp only [View.readAt_eq_ld, harg2.read_unread, harg3.read_unread, harg5.read_unread, harg6.read_unread, harg7.read_unread,
    View.ld_unit_zero (S := S1x19x16384) hz3, View.ld_unit_zero (S := S1x512x4096) hz3, View.ld_unit_zero (S := S19x1) hz2, View.ld_unit_zero (S := S19x512) hz2]

/-- and in the accumulator zero plus the first tile's product. -/
theorem sout_A_2 (c : Dev nD) (i : grid0.Coords) (arg2 : Memref sig .tc .vmem S1x19x16384 .f32) (harg2 : arg2.IsWhole) (arg3 : Memref sig .tc .vmem S1x512x4096 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x16384 .f32) (x1 : Vec F S1x512x4096 .f32) :
    sout0_A_2 c i arg2 harg2 arg3 harg3 arg4 harg4 arg5 harg5 arg6 harg6 arg7 harg7 hc0 hc1 x0 x1 = k0_pay6 (tileOf i x0) (k0_pay3 x0) x1 (k0_pay5 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_run_names
  rw [View.canon_cons_unit_zero (S := S19x512) hz2, View.readCov_unit_zero (S := S19x1) _ hz2, View.readCov_unit_zero (S := S19x512) _ hz2, tile_read]
  simp only [View.readAt_eq_ld, harg2.read_unread, harg3.read_unread, harg5.read_unread, harg6.read_unread, harg7.read_unread,
    View.ld_unit_zero (S := S1x19x16384) hz3, View.ld_unit_zero (S := S1x512x4096) hz3, View.ld_unit_zero (S := S19x1) hz2, View.ld_unit_zero (S := S19x512) hz2]

end Cert.KernelIdeal.Hand

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PoolConsts.lean ====
/-
  The three float constants the two programs use, as extended reals: the scale 1.0, the starting value −∞ of the
  maxima, and (from the library) the zero the sums start from.
-/
import Idealize.ShloMosaic.PureOps.Ideal.Laws

noncomputable section

namespace Cert.PoolConsts

open Idealize.ShloMosaic

/-- The pattern of 1.0 is the real 1. -/
theorem one_f32 : Ideal.ofBits .f32 0x3F800000#32 = 1 := by simp [Ideal.ofBits, Ideal.ieee, -EReal.coe_mul]; norm_num

/-- The pattern of −∞ is the bottom element. -/
theorem ninf_f32 : Ideal.ofBits .f32 0xFF800000#32 = ⊥ := by simp [Ideal.ofBits, Ideal.ieee]

end Cert.PoolConsts

end
-- ==== Proof.PoolPayloads.lean ====
/-
  The body's arithmetic read at an index, on the extended reals.

  For a slab x0[0, k, s] of logits (19 rows, 16384 positions):
    the row maxima       M[k]    = fold of max from −∞ over s of x0[0, k, s]      (the scale 1.0 is the unit),
    the row sums         L[k]    = Σ s, exp (x0[0, k, s] − M[k]);
  for a tile v8[k, s'] of logits, maxima v12[k, 0], a feature block v16[0, c, s'] and an accumulator v21[k, c]:
    the common step      acc'[k, c] = v21[k, c] + Σ s' < 4096, exp (v8[k, s'] − v12[k, 0]) · v16[0, c, s']
  (the matrix product contracts the last axis of both operands; the changes of float format are the identity);
  and the result         out[0, k, c] = v32[k, c] · (1 / v29[k, 0]).
-/
import proofs.«137643_j61340722922142_2_alg».proof.Proof.Gen.KernelIdeal.Skeleton
import proofs.«137643_j61340722922142_2_alg».proof.Proof.LibGram
import proofs.«137643_j61340722922142_2_alg».proof.Proof.LibRowSum
import proofs.«137643_j61340722922142_2_alg».proof.Proof.LibColumn
import proofs.«137643_j61340722922142_2_alg».proof.Proof.PoolConsts
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.PoolConsts

/-- The scaled slab, as a [19, 16384] matrix, is the slab. -/
theorem pay1_apply (x0 : Vec Ideal S1x19x16384 .f32) (k : Fin 19) (s : Fin 16384) :
    k0_pay1 x0 (ix2 k s) = x0 (ix3 (0 : Fin 1) k s) := by
  unfold k0_pay1
  (try dsimp only)
  rw [mulf_apply, shapeCast_1ab_ab_apply, broadcast_apply]
  show _ * Ideal.ofBits .f32 0x3F800000#32 = _
  rw [one_f32, mul_one]

/-- The row maxima. -/
theorem pay2_apply (x0 : Vec Ideal S1x19x16384 .f32) (k : Fin 19) :
    k0_pay2 x0 (ix2 k (0 : Fin 1)) = (Finset.univ : Finset (Fin 16384)).fold max (⊥ : EReal) (fun s => x0 (ix3 (0 : Fin 1) k s)) := by
  unfold k0_pay2
  (try dsimp only)
  rw [shapeCast_a_a1_apply]
  refine (Gram.multiReduction_max_rows_apply (k0_pay1 x0) 0xFF800000#32 reduces_S19x16384_S19 (.inl rfl) rfl k).trans ?_
  rw [ninf_f32]
  exact congrArg (fun f => Finset.fold max (⊥ : EReal) f Finset.univ) (funext fun s => pay1_apply x0 k s)

/-- The stored maxima are those. -/
theorem pay3_eq (x0 : Vec Ideal S1x19x16384 .f32) : k0_pay3 x0 = k0_pay2 x0 := by
  unfold k0_pay3
  exact shapeCast_self _ _

/-- The row sums of shifted exponentials. -/
theorem pay4_apply (x0 : Vec Ideal S1x19x16384 .f32) (k : Fin 19) :
    k0_pay4 x0 (ix2 k (0 : Fin 1)) = ∑ s : Fin 16384, Ideal.exp (x0 (ix3 (0 : Fin 1) k s) - k0_pay2 x0 (ix2 k (0 : Fin 1))) := by
  unfold k0_pay4
  (try dsimp only)
  rw [shapeCast_self, shapeCast_a_a1_apply]
  refine (multiReduction_add_rows_apply _ reduces_S19x16384_S19 (.inl rfl) rfl k).trans ?_
  refine Finset.sum_congr rfl fun s _ => ?_
  show Ideal.exp (k0_pay1 x0 (ix2 k s) - broadcastTo S19x16384 (k0_pay2 x0) broadcasts_S19x1_S19x16384 (ix2 k s)) = _
  rw [pay1_apply, broadcastTo_a1_ab_apply]

/-- The cleared accumulator. -/
theorem pay5_apply (j : S19x512.Idx) : k0_pay5 (F := Ideal) j = 0 := by
  unfold k0_pay5
  (try dsimp only)
  rw [shapeCast_self, broadcast_apply]
  exact Ideal.ofBits_zero_f32

theorem dot_l0 (j : S19x512.Idx) (q : dot_S19x4096_S512x4096_S19x512_1_1_0_0_n_n.contr.Idx) : (dot_S19x4096_S512x4096_S19x512_1_1_0_0_n_n.lhsIdx j q 0).val = (j 0).val := by
  unfold DotDims.lhsIdx
  rw [dif_neg (show ¬(0 : Fin S19x4096.rank) ∈ dot_S19x4096_S512x4096_S19x512_1_1_0_0_n_n.lhsBatch by decide), dif_pos (show (0 : Fin S19x4096.rank) ∈ dot_S19x4096_S512x4096_S19x512_1_1_0_0_n_n.lhsNonContracting by decide)]
  rfl
theorem dot_r0 (j : S19x512.Idx) (q : dot_S19x4096_S512x4096_S19x512_1_1_0_0_n_n.contr.Idx) : (dot_S19x4096_S512x4096_S19x512_1_1_0_0_n_n.rhsIdx j q 0).val = (j 1).val := by
  unfold DotDims.rhsIdx
  rw [dif_neg (show ¬(0 : Fin S512x4096.rank) ∈ dot_S19x4096_S512x4096_S19x512_1_1_0_0_n_n.rhsBatch by decide), dif_pos (show (0 : Fin S512x4096.rank) ∈ dot_S19x4096_S512x4096_S19x512_1_1_0_0_n_n.rhsNonContracting by decide)]
  rfl

/-- A vector's exponential read at an index. -/
theorem exp_apply {s : Shape} {φ : FTy} (a : FVec Ideal s φ) (i : s.Idx) : exp a i = Ideal.exp (a i) := rfl

/-- The matrix product into the zero accumulator, read at (k, c): the sum over the shared last coordinate. -/
theorem matmul_at (l : FVec Ideal S19x4096 .bf16) (r : FVec Ideal S512x4096 .bf16) (k : Fin 19) (c : Fin 512) :
    FloatOps.matmul dot_S19x4096_S512x4096_S19x512_1_1_0_0_n_n none l r (constant S19x512 .f32 0x00000000#32) (ix2 k c) = ∑ s' : Fin 4096, l (ix2 k s') * r (ix2 c s') :=
  (Ideal.matmul_constant_zero_apply dot_S19x4096_S512x4096_S19x512_1_1_0_0_n_n none l r (ix2 k c)).trans
    (Gram.sum_contr_last dot_S19x4096_S512x4096_S19x512_1_1_0_0_n_n rfl rfl rfl rfl dot_l0 dot_r0 l r (ix2 k c))

/-- The common step: the accumulator plus this tile's product. -/
theorem pay6_apply (v8 : Vec Ideal S19x4096 .f32) (v12 : Vec Ideal S19x1 .f32) (v16 : Vec Ideal S1x512x4096 .f32) (v21 : Vec Ideal S19x512 .f32)
    (k : Fin 19) (c : Fin 512) :
    k0_pay6 v8 v12 v16 v21 (ix2 k c)
      = v21 (ix2 k c) + ∑ s' : Fin 4096, Ideal.exp (v8 (ix2 k s') - v12 (ix2 k (0 : Fin 1))) * v16 (ix3 (0 : Fin 1) c s') := by
  unfold k0_pay6
  (try dsimp only)
  rw [shapeCast_self, addf_apply]
  refine congrArg (v21 (ix2 k c) + ·) ?_
  simp only [matmul]
  refine (matmul_at _ _ k c).trans ?_
  refine Finset.sum_congr rfl fun s' _ => ?_
  rw [truncf_apply, truncf_apply, exp_apply, subf_apply, mulf_apply, shapeCast_self, broadcast_apply, broadcastTo_a1_ab_apply, shapeCast_1ab_ab_apply]
  show Ideal.exp (v8 (ix2 k s') * Ideal.ofBits .f32 0x3F800000#32 - _) * _ = _
  rw [one_f32, mul_one]

/-- The result: the accumulator times the reciprocal of the row sums. -/
theorem pay7_apply (v29 : Vec Ideal S19x1 .f32) (v32 : Vec Ideal S19x512 .f32) (k : Fin 19) (c : Fin 512) :
    k0_pay7 v29 v32 (ix3 (0 : Fin 1) k c) = v32 (ix2 k c) * Ideal.div 1 (v29 (ix2 k (0 : Fin 1))) := by
  unfold k0_pay7
  (try dsimp only)
  rw [shapeCast_ab_1ab_apply, mulf_apply, broadcastTo_a1_ab_apply, divf_apply, broadcast_apply]
  show _ * Ideal.div (Ideal.ofBits .f32 0x3F800000#32) _ = _
  rw [one_f32]

end Cert.KernelIdeal.Pay

end
-- ==== Proof.PoolSpec.lean ====
/-
  Softmax-weighted spatial pooling, as two arrangements of one sum.

  For logits P[b, k, s] (8 batches, 19 classes, 16384 positions) and features Fe[b, c, s] (512 channels), let
      M[b, k] = max over s of P[b, k, s]          (a fold of max from −∞),
      e[b, k, s] = exp (P[b, k, s] − M[b, k]),
      L[b, k] = Σ s, e[b, k, s].
  The reference normalises first and contracts afterwards:
      G[b, k, c] = Σ s, (e[b, k, s] / L[b, k]) · Fe[b, c, s].
  The kernel contracts tile by tile — four tiles of 4096 positions, added in order into an accumulator that starts at
  zero — and multiplies by the reciprocal of L at the end:
      K[b, k, c] = ((((0 + T 0) + T 1) + T 2) + T 3) · (1 / L[b, k]),   T j = Σ s' < 4096, e[b, k, 4096 j + s'] · Fe[b, c, 4096 j + s'].
  On extended reals that are real numbers the two agree (distributivity of the reals); with infinite entries they
  need not.
-/
import Idealize.ShloMosaic.PureOps.Ideal
import Idealize.ShloMosaic.Lib.ValueIdx

noncomputable section

open scoped BigOperators

namespace Cert.PoolSpec

open Idealize.ShloMosaic Idealize.ShloMosaic.ValueIdx

/-- The logits' shape, the features' shape and the result's shape. -/
abbrev SP : Shape := ⟨3, ![8, 19, 16384]⟩
abbrev SF : Shape := ⟨3, ![8, 512, 16384]⟩
abbrev SO : Shape := ⟨3, ![8, 19, 512]⟩

/-- The row maximum M[b, k]: the fold of max from −∞ over the 16384 positions. -/
def rowMax (P : SP.Idx → EReal) (b : Fin 8) (k : Fin 19) : EReal :=
  (Finset.univ : Finset (Fin 16384)).fold max (⊥ : EReal) (fun s => P (ix3 b k s))

/-- The shifted exponential e[b, k, s]. -/
def ex (P : SP.Idx → EReal) (b : Fin 8) (k : Fin 19) (s : Fin 16384) : EReal :=
  Ideal.exp (P (ix3 b k s) - rowMax P b k)

/-- The row sum L[b, k]. -/
def rowSum (P : SP.Idx → EReal) (b : Fin 8) (k : Fin 19) : EReal := ∑ s : Fin 16384, ex P b k s

/-- The reference's arrangement at (b, k, c): normalise, then contract. -/
def Gat (P : SP.Idx → EReal) (Fe : SF.Idx → EReal) (b : Fin 8) (k : Fin 19) (c : Fin 512) : EReal :=
  ∑ s : Fin 16384, Ideal.div (ex P b k s) (rowSum P b k) * Fe (ix3 b c s)

/-- The reference's arrangement as an array. -/
def G (P : SP.Idx → EReal) (Fe : SF.Idx → EReal) : SO.Idx → EReal := fun i => Gat P Fe (i 0) (i 1) (i 2)

/-- Position s' of tile j among the 16384 positions. -/
abbrev pos (j : Fin 4) (s' : Fin 4096) : Fin 16384 := ⟨j.val * 4096 + s'.val, by have := j.isLt; have := s'.isLt; omega⟩

/-- One tile's contraction T j at (b, k, c). -/
def tileDot (P : SP.Idx → EReal) (Fe : SF.Idx → EReal) (b : Fin 8) (k : Fin 19) (c : Fin 512) (j : Fin 4) : EReal :=
  ∑ s' : Fin 4096, ex P b k (pos j s') * Fe (ix3 b c (pos j s'))

/-- The accumulator after tiles 0 … j: zero plus the tiles' contractions, added in order. -/
def accAt (P : SP.Idx → EReal) (Fe : SF.Idx → EReal) (b : Fin 8) (k : Fin 19) (c : Fin 512) : ℕ → EReal
  | 0 => 0 + tileDot P Fe b k c 0
  | n + 1 => accAt P Fe b k c n + tileDot P Fe b k c ⟨(n + 1) % 4, Nat.mod_lt _ (by decide)⟩

/-- The kernel's arrangement at (b, k, c): contract tile by tile, then multiply by the reciprocal of the row sum. -/
def Kat (P : SP.Idx → EReal) (Fe : SF.Idx → EReal) (b : Fin 8) (k : Fin 19) (c : Fin 512) : EReal :=
  accAt P Fe b k c 3 * Ideal.div 1 (rowSum P b k)

/-- The kernel's arrangement as an array. -/
def K (P : SP.Idx → EReal) (Fe : SF.Idx → EReal) : SO.Idx → EReal := fun i => Kat P Fe (i 0) (i 1) (i 2)

end Cert.PoolSpec

end
-- ==== Proof.PoolInv.lean ====
/-
  The scratch buffers, point by point, are the pooling's intermediate quantities.

  Point t works on batch b = t / 4 and tile j = t % 4.  Window 0's block at t is batch b's slab of logits, window 1's
  block is batch b's features at the tile's 4096 positions, and the tile the common step loads is the slab at those
  positions.  By induction on the point: after point t the first scratch holds the row maxima M[b, ·], the second
  the row sums L[b, ·], and the accumulator zero plus the contractions of tiles 0 … j, added in order; at tile 3 the
  output buffer holds the accumulator times 1 / L — the kernel's arrangement K[b, ·, ·].
-/
import proofs.«137643_j61340722922142_2_alg».proof.Proof.PoolPieces
import proofs.«137643_j61340722922142_2_alg».proof.Proof.PoolPayloads
import proofs.«137643_j61340722922142_2_alg».proof.Proof.PoolSpec
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Pay Cert.PoolSpec

variable (m : (ℓ : Loc nD τ sig) → Buf (Elt Ideal) ℓ) (ρ : Dev nD → PrngReg)

/-! ## The grid's index maps, decided once -/

theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ k0_off1 (grid0.coords t) (1 : Fin 2) = t.val % 4 * 4096 :=
  (by decide +kernel : ∀ t : Fin grid0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ k0_off1 (grid0.coords t) (1 : Fin 2) = t.val % 4 * 4096)

/-- The batch and the tile of a point. -/
def bOf (t : Fin cfg0.N) : Fin 8 := ⟨t.val / 4, by have h := t.isLt; have hN : cfg0.N = 32 := N_0; omega⟩
def jOf (t : Fin cfg0.N) : Fin 4 := ⟨t.val % 4, Nat.mod_lt _ (by decide)⟩

/-- The logits and the features as the region finds them. -/
abbrev Pm (c : Dev nD) : SP.Idx → EReal := V m c main_v1
abbrev Fm (c : Dev nD) : SF.Idx → EReal := V m c main_v0

/-! ## The blocks and the tile -/

/-- Window 0's block at a point is its batch's slab of logits. -/
theorem blk0_apply (c : Dev nD) (t : Fin cfg0.N) (k : Fin 19) (s : Fin 16384) :
    (iblk m c 0 t : Vec Ideal S1x19x16384 .f32) (ix3 (0 : Fin 1) k s) = Pm m c (ix3 (bOf t) k s) := by
  unfold iblk
  rw [View.read_apply]
  show V m c main_v1 (((cfg0.win 0).blk t).view.emb (ix3 (0 : Fin 1) k s)) = V m c main_v1 (ix3 (bOf t) k s)
  obtain ⟨h0, h1, h2, -⟩ := idx_facts t
  refine congrArg (V m c main_v1) (funext fun a => Fin.ext ?_)
  match a with
  | ⟨0, _⟩ => show win0_0.index t 0 * 1 + 1 * 0 = t.val / 4; rw [h0]; omega
  | ⟨1, _⟩ => show win0_0.index t 1 * 19 + 1 * k.val = k.val; rw [h1]; omega
  | ⟨2, _⟩ => show win0_0.index t 2 * 16384 + 1 * s.val = s.val; rw [h2]; omega

/-- Window 1's block at a point is its batch's features at the tile's positions. -/
theorem blk1_apply (c : Dev nD) (t : Fin cfg0.N) (c' : Fin 512) (s' : Fin 4096) :
    (iblk m c 1 t : Vec Ideal S1x512x4096 .f32) (ix3 (0 : Fin 1) c' s') = Fm m c (ix3 (bOf t) c' (pos (jOf t) s')) := by
  unfold iblk
  rw [View.read_apply]
  show V m c main_v0 (((cfg0.win 1).blk t).view.emb (ix3 (0 : Fin 1) c' s')) = V m c main_v0 (ix3 (bOf t) c' (pos (jOf t) s'))
  obtain ⟨-, -, -, h0, h1, h2, -⟩ := idx_facts t
  refine congrArg (V m c main_v0) (funext fun a => Fin.ext ?_)
  match a with
  | ⟨0, _⟩ => show win0_1.index t 0 * 1 + 1 * 0 = t.val / 4; rw [h0]; omega
  | ⟨1, _⟩ => show win0_1.index t 1 * 512 + 1 * c'.val = c'.val; rw [h1]; omega
  | ⟨2, _⟩ => show win0_1.index t 2 * 4096 + 1 * s'.val = t.val % 4 * 4096 + s'.val; rw [h2]; omega

/-- The tile the common step loads is the slab at the tile's positions. -/
theorem tile_apply (t : Fin cfg0.N) (x0 : Vec Ideal S1x19x16384 .f32) (k : Fin 19) (s' : Fin 4096) :
    tileOf (grid0.coords t) x0 (ix2 k s') = x0 (ix3 (0 : Fin 1) k (pos (jOf t) s')) := by
  unfold tileOf
  show shapeCast S19x16384 x0 shapeCasts_S1x19x16384_S19x16384
      ((Rect.unit (s := S19x16384) (k0_off1 (grid0.coords t)) S19x4096.size (k0_off1_inb (grid0.coords t))).idx (ix2 k s')) = _
  obtain ⟨-, -, -, -, -, -, -, -, -, hoff⟩ := idx_facts t
  rw [show (Rect.unit (s := S19x16384) (k0_off1 (grid0.coords t)) S19x4096.size (k0_off1_inb (grid0.coords t))).idx (ix2 k s')
      = ix2 k (pos (jOf t) s') from funext fun a => Fin.ext (by
        match a with
        | ⟨0, _⟩ => show 0 + 1 * k.val = k.val; omega
        | ⟨1, _⟩ => show k0_off1 (grid0.coords t) 1 + 1 * s'.val = t.val % 4 * 4096 + s'.val; rw [hoff]; omega)]
  exact shapeCast_1ab_ab_apply x0 _ k _

/-! ## One point's arithmetic over a block described by coordinates -/

section Step
variable (i : grid0.Coords) (x0 : Vec Ideal S1x19x16384 .f32) (x1 : Vec Ideal S1x512x4096 .f32)
  (P : SP.Idx → EReal) (Fe : SF.Idx → EReal) (b : Fin 8) (j : Fin 4)
  (hx0 : ∀ k s, x0 (ix3 (0 : Fin 1) k s) = P (ix3 b k s))
  (hx1 : ∀ c' s', x1 (ix3 (0 : Fin 1) c' s') = Fe (ix3 b c' (pos j s')))
  (htile : ∀ k s', tileOf i x0 (ix2 k s') = x0 (ix3 (0 : Fin 1) k (pos j s')))
include hx0

theorem max_val (k : Fin 19) : k0_pay3 x0 (ix2 k (0 : Fin 1)) = rowMax P b k := by
  rw [pay3_eq, pay2_apply]
  unfold rowMax
  exact congrArg (fun f => Finset.fold max (⊥ : EReal) f Finset.univ) (funext fun s => hx0 k s)

theorem sum_val (k : Fin 19) : k0_pay4 x0 (ix2 k (0 : Fin 1)) = rowSum P b k := by
  rw [pay4_apply, ← pay3_eq, max_val x0 P b hx0 k]
  unfold rowSum ex
  exact Finset.sum_congr rfl fun s _ => by rw [hx0]

include hx1 htile

/-- The common step adds this tile's contraction to what the accumulator held. -/
theorem step_val (s0 : Vec Ideal S19x1 .f32) (s2 : Vec Ideal S19x512 .f32) (k : Fin 19) (c' : Fin 512) (a : EReal)
    (hs0 : s0 (ix2 k (0 : Fin 1)) = rowMax P b k) (hs2 : s2 (ix2 k c') = a) :
    k0_pay6 (tileOf i x0) s0 x1 s2 (ix2 k c') = a + tileDot P Fe b k c' j := by
  rw [pay6_apply, hs2]
  refine congrArg (a + ·) ?_
  unfold tileDot ex
  exact Finset.sum_congr rfl fun s' _ => by rw [htile, hx0, hs0, hx1]

end Step

/-- The accumulator's recursion, at a point that is not a tile 0. -/
theorem acc_succ (P : SP.Idx → EReal) (Fe : SF.Idx → EReal) (b : Fin 8) (k : Fin 19) (c' : Fin 512) (n : ℕ) (h0 : ¬n % 4 = 0)
    (j : Fin 4) (hj : j.val = n % 4) :
    accAt P Fe b k c' (n % 4) = accAt P Fe b k c' ((n - 1) % 4) + tileDot P Fe b k c' j := by
  have e : n % 4 = (n - 1) % 4 + 1 := by omega
  rw [e]
  show accAt P Fe b k c' ((n - 1) % 4) + tileDot P Fe b k c' ⟨((n - 1) % 4 + 1) % 4, _⟩ = _
  refine congrArg (accAt P Fe b k c' ((n - 1) % 4) + tileDot P Fe b k c' ·) (Fin.ext ?_)
  show ((n - 1) % 4 + 1) % 4 = j.val
  omega

/-! ## The invariant -/

/-- After point n the scratch buffers hold the row maxima, the row sums, and the tiles' contractions so far. -/
theorem inv (c : Dev nD) : ∀ (n : ℕ) (h : n < cfg0.N) (k : Fin 19),
    (outsAt0 m c n h).2.1 (ix2 k (0 : Fin 1)) = rowMax (Pm m c) (bOf ⟨n, h⟩) k
    ∧ (outsAt0 m c n h).2.2.1 (ix2 k (0 : Fin 1)) = rowSum (Pm m c) (bOf ⟨n, h⟩) k
    ∧ ∀ c' : Fin 512, (outsAt0 m c n h).2.2.2 (ix2 k c') = accAt (Pm m c) (Fm m c) (bOf ⟨n, h⟩) k c' (n % 4) := by
  intro n
  induction n using Nat.strong_induction_on with
  | _ n ih =>
    intro h k
    have hN : cfg0.N = 32 := N_0
    by_cases h0 : n % 4 = 0
    · have h1 : ¬n % 4 = 3 := by omega
      rw [show outsAt0 m c n h = _ from outsAt0_A m c ⟨n, h⟩ h0 h1]
      dsimp only
      rw [sout_A_0, sout_A_1, sout_A_2]
      have hmax := max_val (iblk m c 0 ⟨n, h⟩) (Pm m c) (bOf ⟨n, h⟩) (blk0_apply m c ⟨n, h⟩)
      refine ⟨hmax k, sum_val (iblk m c 0 ⟨n, h⟩) (Pm m c) (bOf ⟨n, h⟩) (blk0_apply m c ⟨n, h⟩) k, fun c' => ?_⟩
      rw [step_val (grid0.coords ⟨n, h⟩) (iblk m c 0 ⟨n, h⟩) (iblk m c 1 ⟨n, h⟩) (Pm m c) (Fm m c) (bOf ⟨n, h⟩) (jOf ⟨n, h⟩)
        (blk0_apply m c ⟨n, h⟩) (blk1_apply m c ⟨n, h⟩) (tile_apply ⟨n, h⟩ (iblk m c 0 ⟨n, h⟩)) _ _ k c' 0 (hmax k) (pay5_apply _)]
      rw [h0]
      show _ = 0 + tileDot _ _ _ _ _ 0
      exact congrArg (0 + tileDot (Pm m c) (Fm m c) (bOf ⟨n, h⟩) k c' ·) (Fin.ext h0)
    · have hlt : n - 1 < cfg0.N := by omega
      obtain ⟨p0, p1, p2⟩ := ih (n - 1) (by omega) hlt k
      have hb : bOf ⟨n - 1, hlt⟩ = bOf ⟨n, h⟩ := Fin.ext (by show (n - 1) / 4 = n / 4; omega)
      rw [hb] at p0 p1 p2
      by_cases h1 : n % 4 = 3
      · rw [show outsAt0 m c n h = _ from outsAt0_C m c ⟨n, h⟩ h0 h1]
        dsimp only
        rw [sout_C_2]
        refine ⟨p0, p1, fun c' => ?_⟩
        rw [step_val (grid0.coords ⟨n, h⟩) (iblk m c 0 ⟨n, h⟩) (iblk m c 1 ⟨n, h⟩) (Pm m c) (Fm m c) (bOf ⟨n, h⟩) (jOf ⟨n, h⟩)
          (blk0_apply m c ⟨n, h⟩) (blk1_apply m c ⟨n, h⟩) (tile_apply ⟨n, h⟩ (iblk m c 0 ⟨n, h⟩)) _ _ k c' _ p0 (p2 c')]
        exact (acc_succ _ _ _ _ _ n h0 (jOf ⟨n, h⟩) rfl).symm
      · rw [show outsAt0 m c n h = _ from outsAt0_B m c ⟨n, h⟩ h0 h1]
        dsimp only
        rw [sout_B_2]
        refine ⟨p0, p1, fun c' => ?_⟩
        rw [step_val (grid0.coords ⟨n, h⟩) (iblk m c 0 ⟨n, h⟩) (iblk m c 1 ⟨n, h⟩) (Pm m c) (Fm m c) (bOf ⟨n, h⟩) (jOf ⟨n, h⟩)
          (blk0_apply m c ⟨n, h⟩) (blk1_apply m c ⟨n, h⟩) (tile_apply ⟨n, h⟩ (iblk m c 0 ⟨n, h⟩)) _ _ k c' _ p0 (p2 c')]
        exact (acc_succ _ _ _ _ _ n h0 (jOf ⟨n, h⟩) rfl).symm

/-- At a tile 3 the output buffer holds the kernel's arrangement of its batch. -/
theorem out_val (c : Dev nD) (t : Fin cfg0.N) (h1 : t.val % 4 = 3) (k : Fin 19) (c' : Fin 512) :
    (outsAt0 m c t.val t.isLt).1 (ix3 (0 : Fin 1) k c') = Kat (Pm m c) (Fm m c) (bOf t) k c' := by
  have hN : cfg0.N = 32 := N_0
  have h0 : ¬t.val % 4 = 0 := by omega
  have hlt : t.val - 1 < cfg0.N := by have := t.isLt; omega
  obtain ⟨p0, p1, p2⟩ := inv m c (t.val - 1) hlt k
  have hb : bOf ⟨t.val - 1, hlt⟩ = bOf t := Fin.ext (by show (t.val - 1) / 4 = t.val / 4; omega)
  rw [hb] at p0 p1 p2
  rw [outsAt0_C m c t h0 h1]
  dsimp only
  rw [out_C_2, pay7_apply]
  rw [step_val (grid0.coords t) (iblk m c 0 t) (iblk m c 1 t) (Pm m c) (Fm m c) (bOf t) (jOf t)
    (blk0_apply m c t) (blk1_apply m c t) (tile_apply t (iblk m c 0 t)) _ _ k c' _ p0 (p2 c')]
  rw [← acc_succ _ _ _ _ _ t.val h0 (jOf t) rfl, h1, p1]
  rfl

end Cert.KernelIdeal.Hand

end
-- ==== Proof.PoolKernel.lean ====
/-
  The kernel's result array after the run is the pooling in the kernel's arrangement.

  The output window is written back at the tile-3 points only; the block written at point t is batch t / 4's
  [19, 512] slice of the result, and those eight blocks tile the array.  What each holds is what the invariant
  says the output buffer holds at a tile 3.
-/
import proofs.«137643_j61340722922142_2_alg».proof.Proof.PoolInv

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Pay Cert.PoolSpec

variable (m : (ℓ : Loc nD τ sig) → Buf (Elt Ideal) ℓ) (ρ : Dev nD → PrngReg)

/-- An index of a [1, 19, 512] block by its two free coordinates. -/
theorem split_blk (y : S1x19x512.Idx) : ∃ (k : Fin 19) (c' : Fin 512), y = ix3 (0 : Fin 1) k c' :=
  ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩

/-- What a tile-3 point writes back is its batch's block of the kernel's arrangement. -/
theorem flushed_eq (c : Dev nD) (t : Fin cfg0.N) (hf : (cfg0.win 2).flush t = true) :
    (dats m 0 c).flushed 2 t = ((cfg0.win 2).blk t).view.read (Elt Ideal) (K (Pm m c) (Fm m c)) := by
  have h3 : t.val % 4 = 3 := (flush0_2 t).mp hf
  show (cfg0.win 2).cut (grid0.coords t) ((dats m 0 c).after 2 t) = _
  rw [after0_2]
  funext y
  obtain ⟨k, c', rfl⟩ := split_blk y
  rw [View.read_apply]
  show (outsAt0 m c t.val t.isLt).1 (ix3 (0 : Fin 1) k c') = K (Pm m c) (Fm m c) (((cfg0.win 2).blk t).view.emb (ix3 (0 : Fin 1) k c'))
  obtain ⟨-, -, -, -, -, -, h0, h1, h2, -⟩ := idx_facts t
  rw [show ((cfg0.win 2).blk t).view.emb (ix3 (0 : Fin 1) k c') = ix3 (bOf t) k c' from funext fun a => Fin.ext (by
    match a with
    | ⟨0, _⟩ => show win0_2.index t 0 * 1 + 1 * 0 = t.val / 4; rw [h0]; omega
    | ⟨1, _⟩ => show win0_2.index t 1 * 19 + 1 * k.val = k.val; rw [h1]; omega
    | ⟨2, _⟩ => show win0_2.index t 2 * 512 + 1 * c'.val = c'.val; rw [h2]; omega)]
  exact out_val m c t h3 k c'

/-- An index of the result is in point t's block iff each coordinate is in the block's range. -/
theorem mem_blk (t : Fin cfg0.N) (i : S8x19x512.Idx) :
    i ∈ ((cfg0.win 2).blk t).view.set ↔ ∀ a : Fin 3, win0_2.index t a * S1x19x512.size a ≤ (i a).val ∧ (i a).val < win0_2.index t a * S1x19x512.size a + S1x19x512.size a := by
  show i ∈ ((View.whole main_v2).slice (win0_2.rect t)).set ↔ _
  rw [View.set_slice_whole, Rect.mem_set_unit]
  exact Iff.rfl

/-- The result array after the run. -/
theorem final (c : Dev nD) : (dats m 0 c).arrAt 2 cfg0.N = K (Pm m c) (Fm m c) :=
  (dats m 0 c).arrAt_eq_of_cover 2 (K (Pm m c) (Fm m c)) (flushed_eq m c) fun i => by
    have hN : cfg0.N = 32 := N_0
    have hi0 : (i 0).val < 8 := (i 0).isLt
    have hi1 : (i 1).val < 19 := (i 1).isLt
    have hi2 : (i 2).val < 512 := (i 2).isLt
    refine ⟨⟨4 * (i 0).val + 3, by omega⟩, (flush0_2 _).mpr (by show (4 * (i 0).val + 3) % 4 = 3; omega), ?_⟩
    rw [mem_blk]
    obtain ⟨-, -, -, -, -, -, h0, h1, h2, -⟩ := idx_facts ⟨4 * (i 0).val + 3, by omega⟩
    intro a
    match a with
    | ⟨0, _⟩ => show win0_2.index _ 0 * 1 ≤ (i 0).val ∧ (i 0).val < win0_2.index _ 0 * 1 + 1; rw [h0]; show (4 * (i 0).val + 3) / 4 * 1 ≤ _ ∧ _ < (4 * (i 0).val + 3) / 4 * 1 + 1; omega
    | ⟨1, _⟩ => show win0_2.index _ 1 * 19 ≤ (i 1).val ∧ (i 1).val < win0_2.index _ 1 * 19 + 19; rw [h1]; omega
    | ⟨2, _⟩ => show win0_2.index _ 2 * 512 ≤ (i 2).val ∧ (i 2).val < win0_2.index _ 2 * 512 + 512; rw [h2]; omega

/-- The logits and the features the region finds are the arguments, reshaped. -/
theorem Pm_eq (c : Dev nD) : Pm m c = shapeCast S8x19x16384 (m ((c : Thread nD τ).loc main_arg1)) shapeCasts_S8x19x128x128_S8x19x16384 := by
  show (V m c main_v1 : S8x19x16384.Idx → EReal) = _
  dsimp only [V, hostOps0]; after_results; rfl
theorem Fm_eq (c : Dev nD) : Fm m c = shapeCast S8x512x16384 (m ((c : Thread nD τ).loc main_arg0)) shapeCasts_S8x512x128x128_S8x512x16384 := by
  show (V m c main_v0 : S8x512x16384.Idx → EReal) = _
  dsimp only [V, hostOps0]; after_results; rfl

/-- The run, read: the result array at the kernel's arrangement, the arguments unchanged. -/
theorem run : θ_run defs (onTc (τ := τ) (main (F := Ideal))) ⟨m, fun _ => 0, ρ⟩ fun r => ∀ c : Dev nD,
      r.2.mem ((c : Thread nD τ).loc main_v2) = K (Pm m c) (Fm m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Hand

end
-- ==== Proof.PoolRef.lean ====
/-
  The reference computes the softmax-weighted pooling in the order "normalise, then contract".

  Read one operation at a time at an index (b, k, c): the result is the sum over the 16384 positions s of the
  normalised weight at (b, k, s) times the feature at (b, c, s); the weight is exp (z − M) / L with z the logit
  (the scale 1.0 is the unit of multiplication), M the row's maximum (the host's reduction from −∞, then a maximum
  with −∞ that changes nothing) and L the row's sum of those exponentials (the host's sum from zero).
-/
import proofs.«137643_j61340722922142_2_alg».proof.Proof.Gen.ReferenceIdeal.Read
import proofs.«137643_j61340722922142_2_alg».proof.Proof.PoolSpec
import proofs.«137643_j61340722922142_2_alg».proof.Proof.PoolConsts

noncomputable section

open scoped BigOperators

namespace Cert.PoolRef

open Cert.ReferenceIdeal Cert.ReferenceIdeal.Gen Cert.ReferenceIdeal.Read Idealize.ShloMosaic Idealize.ShloMosaic.ValueIdx
open Cert.PoolSpec Cert.PoolConsts

variable (x0 : (⟨S8x512x128x128, .f32⟩ : BufTy).Contents (Elt Ideal)) (x1 : (⟨S8x19x128x128, .f32⟩ : BufTy).Contents (Elt Ideal))

/-- The scaled logits are the logits. -/
theorem v2_at (j : S8x19x16384.Idx) : val_main_v2 (F := Ideal) x1 j = val_main_v0 (F := Ideal) x1 j := by
  rw [val_main_v2_apply, val_main_v1_apply, val_main_cst_apply]
  show Ideal.ofBits .f32 0x3F800000#32 * _ = _
  rw [one_f32, one_mul]

/-- The reduced index (b, k) with position s put back is (b, k, s). -/
theorem lift_bk (h : S8x19x16384.Reduces [2] S8x19) (b : Fin 8) (k : Fin 19) (s : Fin (S8x19x16384.size 2)) :
    h.lift (ix2 b k) s = ix3 b k (⟨s.val, s.isLt⟩ : Fin 16384) := by
  funext c; apply Fin.ext
  fin_cases c <;> rfl

/-- The host's maximum over the positions is the row maximum. -/
theorem v3_at (b : Fin 8) (k : Fin 19) : val_main_v3 (F := Ideal) x1 (ix2 b k) = rowMax (val_main_v0 (F := Ideal) x1) b k := by
  unfold val_main_v3
  rw [Host.reduce_eq_fold_single FloatOps.maximumf _ _ reducesTo_S8x19x16384_S8x19_d2 (by decide) h_S_]
  unfold rowMax
  rw [val_main_cst_0_apply]
  show Finset.fold max (Ideal.ofBits .f32 0xFF800000#32) _ _ = _
  rw [ninf_f32]
  refine congrArg (fun f => Finset.fold max (⊥ : EReal) f Finset.univ) (funext fun s => ?_)
  show val_main_v2 (F := Ideal) x1 (_) = _
  rw [v2_at, lift_bk]
  rfl

/-- The row maximum, broadcast back over the positions. -/
theorem v7_at (b : Fin 8) (k : Fin 19) (s : Fin 16384) :
    val_main_v7 (F := Ideal) x1 (ix3 b k s) = rowMax (val_main_v0 (F := Ideal) x1) b k := by
  rw [val_main_v7_apply, val_main_v6_apply, val_main_v5_apply, val_main_v4_apply, val_main_cst_1_apply]
  rw [show idx_main_v6 (idx_main_v7 (ix3 b k s)) = ix2 b k from funext fun a => Fin.ext (by match a with | ⟨0, _⟩ => rfl | ⟨1, _⟩ => rfl)]
  rw [v3_at]
  show max (Ideal.ofBits .f32 0xFF800000#32) _ = _
  rw [ninf_f32, max_bot_left]

/-- The shifted exponential. -/
theorem v9_at (b : Fin 8) (k : Fin 19) (s : Fin 16384) :
    val_main_v9 (F := Ideal) x1 (ix3 b k s) = ex (val_main_v0 (F := Ideal) x1) b k s := by
  rw [val_main_v9_apply, val_main_v8_apply, v2_at, v7_at]
  rfl

/-- The row sum, broadcast back over the positions. -/
theorem v12_at (b : Fin 8) (k : Fin 19) (s : Fin 16384) :
    val_main_v12 (F := Ideal) x1 (ix3 b k s) = rowSum (val_main_v0 (F := Ideal) x1) b k := by
  rw [val_main_v12_apply, val_main_v11_apply]
  rw [show idx_main_v11 (idx_main_v12 (ix3 b k s)) = ix2 b k from funext fun a => Fin.ext (by match a with | ⟨0, _⟩ => rfl | ⟨1, _⟩ => rfl)]
  rw [val_main_v10_apply, val_main_cst_2_apply]
  show Ideal.ofBits .f32 0x00000000#32 + _ = _
  rw [Ideal.ofBits_zero_f32, zero_add]
  unfold rowSum
  refine Finset.sum_congr rfl fun s' _ => ?_
  rw [show idx_main_v10 (ix2 b k) s' = ix3 b k s' from funext fun a => Fin.ext (by match a with | ⟨0, _⟩ => rfl | ⟨1, _⟩ => rfl | ⟨2, _⟩ => rfl)]
  exact v9_at x1 b k s'

/-- The reference's result is the pooling in the reference's arrangement, of the reshaped arguments. -/
theorem ref_is_G : val_main_v15 (F := Ideal) x0 x1 = G (val_main_v0 (F := Ideal) x1) (val_main_v14 (F := Ideal) x0) := by
  funext i
  obtain ⟨b, k, c, rfl⟩ : ∃ (b : Fin 8) (k : Fin 19) (c : Fin 512), i = ix3 b k c := ⟨i 0, i 1, i 2, eq_ix3 i⟩
  show _ = Gat _ _ b k c
  rw [val_main_v15_apply]
  unfold Gat
  refine Finset.sum_congr rfl fun s _ => ?_
  rw [show lidx_main_v15 (ix3 b k c) s = ix3 b k s from funext fun a => Fin.ext (by match a with | ⟨0, _⟩ => rfl | ⟨1, _⟩ => rfl | ⟨2, _⟩ => rfl)]
  rw [show ridx_main_v15 (ix3 b k c) s = ix3 b c s from funext fun a => Fin.ext (by match a with | ⟨0, _⟩ => rfl | ⟨1, _⟩ => rfl | ⟨2, _⟩ => rfl)]
  rw [val_main_v13_apply, v9_at, v12_at]
  rfl

end Cert.PoolRef

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«137643_j61340722922142_2_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.LibSoftmaxShift.lean ====
/-
  The softmax is invariant under a real shift, and a maximum of reals started from negative infinity is a real.

  For reals x(0), …, x(n−1) and a real M,
      exp (x(i) − M) / ∑ j, exp (x(j) − M) = exp x(i) / ∑ j, exp x(j),
  because exp (x − M) = exp x / exp M and the common factor 1 / exp M cancels between numerator and denominator.  Stated
  for the extended reals that are coercions of these reals, with the division and the exponential of the ideal
  arithmetic: every term is then the coercion of a real, both denominators are positive reals, and the identity is the
  real one.  This is what joins a softmax computed after subtracting the row's maximum to one computed without: the
  maximum, folded from the bottom element over a nonempty finite family of reals, is one of the reals.
-/
import Idealize.ShloMosaic.PureOps.Ideal
import Mathlib.Data.Finset.Fold
import proofs.«137643_j61340722922142_2_alg».proof.Proof.LibTripleSum

noncomputable section

open scoped BigOperators

namespace Idealize.ShloMosaic.SoftmaxShift

open Idealize.ShloMosaic

/-- The real identity: subtracting a common `M` from every exponent does not change the normalised exponential. -/
theorem real_softmax_shift {n : Nat} (x : Fin n → ℝ) (M : ℝ) (i : Fin n) :
    Real.exp (x i - M) * (1 / ∑ j, Real.exp (x j - M)) = Real.exp (x i) * (1 / ∑ j, Real.exp (x j)) := by
  have hpos : 0 < ∑ j, Real.exp (x j) :=
    Finset.sum_pos (fun j _ => Real.exp_pos _) ⟨i, Finset.mem_univ i⟩
  have hM : Real.exp M ≠ 0 := Real.exp_ne_zero M
  have hs : ∑ j, Real.exp (x j - M) = (∑ j, Real.exp (x j)) / Real.exp M := by
    rw [Finset.sum_div]
    exact Finset.sum_congr rfl fun j _ => Real.exp_sub _ _
  rw [hs, Real.exp_sub]
  field_simp

/-- The same identity in the ideal arithmetic, for extended reals that are reals. -/
theorem softmax_shift {n : Nat} (x : Fin n → ℝ) (M : ℝ) (i : Fin n) :
    Ideal.div (Ideal.exp ((x i : EReal) - (M : EReal))) (∑ j, Ideal.exp ((x j : EReal) - (M : EReal)))
      = Ideal.div (Ideal.exp (x i : EReal)) (∑ j, Ideal.exp (x j : EReal)) := by
  have hL : ∀ j, Ideal.exp ((x j : EReal) - (M : EReal)) = ((Real.exp (x j - M) : ℝ) : EReal) := fun j => by
    rw [← EReal.coe_sub]; rfl
  have hR : ∀ j, Ideal.exp (x j : EReal) = ((Real.exp (x j) : ℝ) : EReal) := fun j => rfl
  have hposL : 0 < ∑ j, Real.exp (x j - M) :=
    Finset.sum_pos (fun j _ => Real.exp_pos _) ⟨i, Finset.mem_univ i⟩
  have hposR : 0 < ∑ j, Real.exp (x j) :=
    Finset.sum_pos (fun j _ => Real.exp_pos _) ⟨i, Finset.mem_univ i⟩
  have sL : (∑ j, Ideal.exp ((x j : EReal) - (M : EReal))) = ((∑ j, Real.exp (x j - M) : ℝ) : EReal) := by
    rw [TripleSum.coe_finsetSum]
    exact Finset.sum_congr rfl fun j _ => hL j
  have sR : (∑ j, Ideal.exp (x j : EReal)) = ((∑ j, Real.exp (x j) : ℝ) : EReal) := by
    rw [TripleSum.coe_finsetSum]
    exact Finset.sum_congr rfl fun j _ => hR j
  rw [sL, sR, hL i, hR i, Ideal.div_coe (ne_of_gt hposL), Ideal.div_coe (ne_of_gt hposR), ← EReal.coe_mul, ← EReal.coe_mul]
  exact congrArg _ (real_softmax_shift x M i)

/-- The maximum from −∞ of a nonempty finite family of reals is (the coercion of) a real. -/
theorem fold_max_real {ι : Type*} (x : ι → ℝ) (s : Finset ι) (hs : s.Nonempty) :
    ∃ r : ℝ, s.fold max (⊥ : EReal) (fun k => (x k : EReal)) = (r : EReal) := by
  refine Finset.Nonempty.cons_induction
    (motive := fun s _ => ∃ r : ℝ, s.fold max (⊥ : EReal) (fun k => (x k : EReal)) = (r : EReal)) ?_ ?_ hs
  · intro a
    exact ⟨x a, by rw [Finset.fold_singleton]; exact max_bot_right _⟩
  · intro a s ha _ ih
    obtain ⟨r, hr⟩ := ih
    exact ⟨max (x a) r, by
      rw [Finset.fold_cons, hr]
      exact (EReal.coe_strictMono.monotone.map_max).symm⟩

end Idealize.ShloMosaic.SoftmaxShift

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.PoolAlgebra.lean ====
/-
  The two arrangements of the softmax-weighted pooling agree on real entries.

  With every logit and every feature a real number, the row maximum is a real (a maximum of finitely many reals), every
  shifted exponential is a positive real, the row sum L is a positive real, and both arrangements are coercions of real
  expressions.  Over the reals,
      (t 0 + t 1 + t 2 + t 3) · (1 / L) = Σ s, (e s / L) · f s,
  because the four tiles' sums t j = Σ s' < 4096, e (4096 j + s') · f (4096 j + s') add up to Σ s, e s · f s (a sum over
  16384 = 4 · 4096 positions taken block by block) and multiplication by 1 / L distributes over the sum.
-/
import proofs.«137643_j61340722922142_2_alg».proof.Proof.PoolSpec
import proofs.«137643_j61340722922142_2_alg».proof.Proof.LibRealEntries
import proofs.«137643_j61340722922142_2_alg».proof.Proof.LibSoftmaxShift
import proofs.«137643_j61340722922142_2_alg».proof.Proof.LibSumBlocks

noncomputable section

open scoped BigOperators

namespace Cert.PoolSpec

open Idealize.ShloMosaic Idealize.ShloMosaic.ValueIdx

/-- The real identity: the tiles' sums, added in order from zero and divided by L at the end, are the sum of the
    normalised products. -/
theorem real_tiles (e f : Fin 16384 → ℝ) (L : ℝ) :
    ((((0 + ∑ s' : Fin 4096, e (pos 0 s') * f (pos 0 s')) + ∑ s' : Fin 4096, e (pos 1 s') * f (pos 1 s'))
        + ∑ s' : Fin 4096, e (pos 2 s') * f (pos 2 s')) + ∑ s' : Fin 4096, e (pos 3 s') * f (pos 3 s')) * (1 / L)
      = ∑ s : Fin 16384, e s / L * f s := by
  have hsum : ∑ s : Fin 16384, e s * f s = ∑ j : Fin 4, ∑ s' : Fin 4096, e (pos j s') * f (pos j s') :=
    SumBlocks.sum_blocks (A := 4) (B := 4096) (fun s => e s * f s)
  have hR : ∑ s : Fin 16384, e s / L * f s = (∑ s : Fin 16384, e s * f s) * (1 / L) := by
    rw [Finset.sum_mul]
    exact Finset.sum_congr rfl fun s _ => by ring
  rw [hR, hsum, Fin.sum_univ_four, zero_add]

variable (P : SP.Idx → EReal) (Fe : SF.Idx → EReal)

/-- On real entries the kernel's arrangement is the reference's. -/
theorem Kat_eq_Gat (hP : ∀ b k s, ∃ r : ℝ, P (ix3 b k s) = (r : EReal)) (hF : ∀ b c s, ∃ r : ℝ, Fe (ix3 b c s) = (r : EReal))
    (b : Fin 8) (k : Fin 19) (c : Fin 512) : Kat P Fe b k c = Gat P Fe b k c := by
  choose p hp using hP
  choose f hf using hF
  -- the row maximum is a real
  obtain ⟨M, hM⟩ : ∃ M : ℝ, rowMax P b k = (M : EReal) := by
    obtain ⟨r, hr⟩ := SoftmaxShift.fold_max_real (fun s : Fin 16384 => p b k s) Finset.univ ⟨⟨0, by decide⟩, Finset.mem_univ _⟩
    refine ⟨r, ?_⟩
    unfold rowMax
    rw [show (fun s : Fin 16384 => P (ix3 b k s)) = fun s => ((p b k s : ℝ) : EReal) from funext fun s => hp b k s]
    exact hr
  -- every shifted exponential is a real
  have hex : ∀ s, ex P b k s = ((Real.exp (p b k s - M) : ℝ) : EReal) := fun s => by
    unfold ex; rw [hp, hM, ← EReal.coe_sub]; rfl
  -- the row sum is a positive real
  have hL : rowSum P b k = ((∑ s : Fin 16384, Real.exp (p b k s - M) : ℝ) : EReal) := by
    unfold rowSum
    rw [← RealEntries.univ_sum_coe]
    exact Finset.sum_congr rfl fun s _ => hex s
  have hLpos : 0 < ∑ s : Fin 16384, Real.exp (p b k s - M) :=
    Finset.sum_pos (fun s _ => Real.exp_pos _) ⟨⟨0, by decide⟩, Finset.mem_univ _⟩
  have hLne : (∑ s : Fin 16384, Real.exp (p b k s - M)) ≠ 0 := ne_of_gt hLpos
  -- the reference's arrangement is a real
  have hG : Gat P Fe b k c = ((∑ s : Fin 16384, Real.exp (p b k s - M) / (∑ s : Fin 16384, Real.exp (p b k s - M)) * f b c s : ℝ) : EReal) := by
    unfold Gat
    rw [← RealEntries.univ_sum_coe]
    refine Finset.sum_congr rfl fun s _ => ?_
    rw [hex, hL, hf, RealEntries.div_coe_coe _ hLne, RealEntries.mul_coe]
  -- each tile's contraction is a real
  have hT : ∀ j : Fin 4, tileDot P Fe b k c j = ((∑ s' : Fin 4096, Real.exp (p b k (pos j s') - M) * f b c (pos j s') : ℝ) : EReal) := fun j => by
    unfold tileDot
    rw [← RealEntries.univ_sum_coe]
    refine Finset.sum_congr rfl fun s' _ => ?_
    rw [hex, hf, RealEntries.mul_coe]
  -- the kernel's arrangement is a real
  have hacc : accAt P Fe b k c 3 = (((0 + tileDot P Fe b k c 0) + tileDot P Fe b k c 1) + tileDot P Fe b k c 2) + tileDot P Fe b k c 3 := rfl
  unfold Kat
  rw [hacc, hT 0, hT 1, hT 2, hT 3, hL, hG, RealEntries.zero_coe, RealEntries.one_coe, RealEntries.div_coe_coe _ hLne,
    RealEntries.add_coe, RealEntries.add_coe, RealEntries.add_coe, RealEntries.add_coe, RealEntries.mul_coe]
  exact congrArg _ (real_tiles (fun s => Real.exp (p b k s - M)) (fun s => f b c s) _)

/-- As arrays. -/
theorem K_eq_G (hP : ∀ b k s, ∃ r : ℝ, P (ix3 b k s) = (r : EReal)) (hF : ∀ b c s, ∃ r : ℝ, Fe (ix3 b c s) = (r : EReal)) :
    K P Fe = G P Fe := funext fun i => Kat_eq_Gat P Fe hP hF (i 0) (i 1) (i 2)

end Cert.PoolSpec

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.PoolFinite.lean ====
/-
  Under the precondition every entry of both arguments is a real number.

  The precondition compares the absolute value of every entry with +∞ and takes the conjunction of all the
  comparisons, for each argument, and then of the two results.  The conjunction being true gives each comparison;
  an extended real whose absolute value max x (−x) is below +∞ is neither infinity, so it is a real.
-/
import proofs.«137643_j61340722922142_2_alg».proof.Pre_finite_inputs
import Idealize.ShloMosaic.Lib.ReduceAll
import Idealize.ShloMosaic.Lib.Affine
import Idealize.ShloMosaic.Lib.ValueIdx
import Idealize.ShloMosaic.PureOps.Ideal
import proofs.«137643_j61340722922142_2_alg».proof.Proof.LibFiniteEntry

noncomputable section

namespace Cert.PoolFinite

open Idealize.ShloMosaic Cert.Pre_finite_inputs

instance : Subsingleton S_.Idx := ⟨fun a b => funext fun d => d.elim0⟩

variable [Facts]

/-- The precondition gives every entry of both arguments as a real. -/
theorem finite_of_pre (a0 : FVec Ideal S8x512x128x128 .f32) (a1 : FVec Ideal S8x19x128x128 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨e0, e1⟩ := IntOp.andi_eq_one.mp h0
  exact ⟨fun i => FiniteEntry.real_of_abs_lt_inf _ (Host.reduce_andi_all _ _ _ _ _ e0 i), fun i => FiniteEntry.real_of_abs_lt_inf _ (Host.reduce_andi_all _ _ _ _ _ e1 i)⟩

end Cert.PoolFinite

end
-- ==== Proof.lean ====
/-
  The pooling kernel against its reference: softmax over the 16384 spatial positions of each (batch, class) row of the
  logits, then the contraction of the weights with the features over the positions.

  The reference normalises each weight by its row's sum L and then contracts; the kernel keeps the row maxima, the
  row sums and a [19, 512] accumulator in scratch buffers across the four spatial tiles of a batch, contracts the
  unnormalised exponentials tile by tile, and multiplies by 1 / L after the last tile.  On real inputs (the
  precondition) every quantity is a real, L is positive, and the two arrangements are one number by distributivity.

  The three frames: each kernel program's run is followed point by point (three cases of the two conditionals on the
  tile number, the scratch contents carried in the region's invariant); the reference's is its run with the result
  dropped.  Nothing was rewritten by the idealization, so the second claim is trivial.
-/
import proofs.«137643_j61340722922142_2_alg».proof.Defs
import proofs.«137643_j61340722922142_2_alg».proof.Proof.Gen.Kernel
import proofs.«137643_j61340722922142_2_alg».proof.Proof.Gen.KernelIdeal
import proofs.«137643_j61340722922142_2_alg».proof.Proof.Gen.ReferenceIdeal
import proofs.«137643_j61340722922142_2_alg».proof.Proof.Gen.ReferenceIdeal.Run
import proofs.«137643_j61340722922142_2_alg».proof.Proof.Gen.ReferenceIdeal.Read
import proofs.«137643_j61340722922142_2_alg».proof.Proof.Gen.Pre_finite_inputs
import proofs.«137643_j61340722922142_2_alg».proof.Proof.BFrame
import proofs.«137643_j61340722922142_2_alg».proof.Proof.PoolKernel
import proofs.«137643_j61340722922142_2_alg».proof.Proof.PoolRef
import proofs.«137643_j61340722922142_2_alg».proof.Proof.PoolAlgebra
import proofs.«137643_j61340722922142_2_alg».proof.Proof.PoolFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the pooling of the reshaped arguments: the kernel in its own arrangement, the reference
    in the other, equal because the precondition makes every entry a real. -/
theorem algebraic : Cert.algebraic_KernelIdeal_ReferenceIdeal := by
  intro m ρ m' ρ' hpre hagree
  refine ⟨fun c => Cert.PoolSpec.K (Cert.KernelIdeal.Hand.Pm m c) (Cert.KernelIdeal.Hand.Fm m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hf0, hf1⟩ := Cert.PoolFinite.finite_of_pre _ _ (hpre c)
  rw [Cert.ReferenceIdeal.Read.val_main_v15_eq, Cert.PoolRef.ref_is_G, (hagree c).1, (hagree c).2]
  show Cert.PoolSpec.G _ _ = Cert.PoolSpec.K (Cert.KernelIdeal.Hand.Pm m c) (Cert.KernelIdeal.Hand.Fm m c)
  rw [Cert.KernelIdeal.Hand.Pm_eq, Cert.KernelIdeal.Hand.Fm_eq]
  exact (Cert.PoolSpec.K_eq_G _ _ (fun b k s => hf1 _) (fun b c' s => hf0 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
